-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S3x128x128 : Shape := ⟨3, ![3, 128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128x1 .f32) (main_arg6 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg5
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S3x128x128 .f32) (main_arg4 : FVec F S128 .f32) (main_arg5 : FVec F S128x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S3x128x128 : Shape := ⟨3, ![3, 128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S2000x128 : Shape := ⟨2, ![2000, 128]⟩
abbrev S2000x1 : Shape := ⟨2, ![2000, 1]⟩
abbrev S1x128x128 : Shape := ⟨3, ![1, 128, 128]⟩
abbrev S128x128 : Shape := ⟨2, ![128, 128]⟩
abbrev S1x128 : Shape := ⟨2, ![1, 128]⟩
abbrev S1x1 : Shape := ⟨2, ![1, 1]⟩

abbrev nBuf : Space → Nat
  | .hbm => 84
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S3x128x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S1600000, .f32⟩
  | .hbm, ⟨47, _⟩ => ⟨S1600000x1, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1600000x1, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S1600000x128, .f32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S100000x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S3x128x128, .f32⟩
  | .local _ .vmem, ⟨7, _⟩ => ⟨S128, .f32⟩
  | .local _ .vmem, ⟨8, _⟩ => ⟨S128x1, .f32⟩
  | .local _ .vmem, ⟨9, _⟩ => ⟨S1, .f32⟩
  | .local _ .vmem, ⟨10, _⟩ => ⟨S2000x1, .f32⟩
  | .local _ .vmem, ⟨11, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x128.size a ≤ S3x128x128.size a
  hwx0_3 : ∀ i : grid0.Coords, EltTy.bits .f32 = 32 ∨ (Rect.block (s := S3x128x128) S3x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x1.size a ≤ S100000x1.size a
  hwx0_7 : ∀ i : grid0.Coords, EltTy.bits .f32 = 32 ∨ (Rect.block (s := S100000x1) S2000x1.size (cc0_transform_7 i) (hinb0_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v59) S2000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S3x128x128 : Shape := ⟨3, ![3, 128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1x128x128 : Shape := ⟨3, ![1, 128, 128]⟩
abbrev S128x128 : Shape := ⟨2, ![128, 128]⟩
abbrev S1600000x128 : Shape := ⟨2, ![1600000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S3x128x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S1600000, .f32⟩
  | .hbm, ⟨47, _⟩ => ⟨S1x128x128, .f32⟩
  | .hbm, ⟨48, _⟩ => ⟨S128x128, .f32⟩
  | .hbm, ⟨49, _⟩ => ⟨S100000x128, .f32⟩
  | .hbm, ⟨50, _⟩ => ⟨S1600000x1, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S1600000x128, .f32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S1x128x128, .f32⟩
  | .hbm, ⟨67, _⟩ => ⟨S128x128, .f32⟩
  | .hbm, ⟨68, _⟩ => ⟨S100000x128, .f32⟩
  | .hbm, ⟨69, _⟩ => ⟨S100000x128, .f32⟩
  | .hbm, ⟨70, _⟩ => ⟨S1600000x1, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S1600000x128, .f32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S1x128x128, .f32⟩
  | .hbm, ⟨91, _⟩ => ⟨S128x128, .f32⟩
  | .hbm, ⟨92, _⟩ => ⟨S100000x128, .f32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S100000x128, .f32⟩
  | .hbm, ⟨97, _⟩ => ⟨S_, .f32⟩
  | .hbm, ⟨98, _⟩ => ⟨S100000x128, .f32⟩
  | .hbm, ⟨99, _⟩ => ⟨S100000x128, .f32⟩
  | .hbm, ⟨100, _⟩ => ⟨S100000x1, .f32⟩
  | .hbm, ⟨101, _⟩ => ⟨S1x1, .f32⟩
  | .hbm, ⟨102, _⟩ => ⟨S100000x1, .f32⟩
  | .hbm, ⟨103, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  slices_S3x128x128_S1x128x128_0_0_0 : S3x128x128.Slices ![0, 0, 0] S1x128x128
  shapeCasts_S1x128x128_S128x128 : S1x128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.ChebDense.lean ====
/-
  The dense stage of a Chebyshev graph convolution with three terms, as mathematics on the extended reals.

  A node carries three feature rows of length 128: its own features `x0`, the once-propagated features `x1`
  and the twice-propagated (Chebyshev) features `x2`.  The dense stage mixes them through three 128 × 128
  weight matrices, adds a bias, clips below at zero and projects onto one output channel:

      out = ( ∑ₖ max( ((∑ⱼ x0 j · W0 j k) + (∑ⱼ x1 j · W1 j k)) + (∑ⱼ x2 j · W2 j k) + b k , 0 ) · wl k ) + bl.

  Every sum is a finite sum in the commutative monoid of extended reals, the grouping of the three matrix
  products is the one written, and the zero the clip compares with is the value of the all-zero 32-bit
  pattern, left unevaluated.  `wholeOut` is that formula for every node of a graph with 100000 nodes, over
  arrays indexed by coordinates.
-/
import Idealize.ShloMosaic.PureOps.Ideal
import Idealize.ShloMosaic.Lib.ValueIdx

noncomputable section

namespace Cert.ChebDense

open Idealize.ShloMosaic Idealize.ShloMosaic.ValueIdx

/-- The clipped hidden activation of channel `k` of one node: the three mixed rows, the bias, and the clip at zero. -/
def nodeHidden (x0 x1 x2 : Fin 128 → EReal) (W0 W1 W2 : Fin 128 → Fin 128 → EReal) (b : Fin 128 → EReal) (k : Fin 128) : EReal :=
  max ((((∑ j : Fin 128, x0 j * W0 j k) + (∑ j : Fin 128, x1 j * W1 j k)) + (∑ j : Fin 128, x2 j * W2 j k)) + b k)
    (Ideal.ofBits .f32 0x00000000#32)

/-- The projection of a node's hidden activations onto the single output channel, before the output bias. -/
def nodeProject (x0 x1 x2 : Fin 128 → EReal) (W0 W1 W2 : Fin 128 → Fin 128 → EReal) (b wl : Fin 128 → EReal) : EReal :=
  ∑ k : Fin 128, nodeHidden x0 x1 x2 W0 W1 W2 b k * wl k

/-- One node's output. -/
def nodeOut (x0 x1 x2 : Fin 128 → EReal) (W0 W1 W2 : Fin 128 → Fin 128 → EReal) (b wl : Fin 128 → EReal) (bl : EReal) : EReal :=
  nodeProject x0 x1 x2 W0 W1 W2 b wl + bl

/-- The output column of the whole graph: node `i 0` reads row `i 0` of each of the three feature arrays, slab `s`
    of the weight tensor as `Wₛ`, and the one entry of the output bias. -/
def wholeOut (x0 t1 t2 : FVec Ideal ⟨2, ![100000, 128]⟩ .f32) (w : FVec Ideal ⟨3, ![3, 128, 128]⟩ .f32)
    (b : FVec Ideal ⟨1, ![128]⟩ .f32) (wl : FVec Ideal ⟨2, ![128, 1]⟩ .f32) (bl : FVec Ideal ⟨1, ![1]⟩ .f32) :
    FVec Ideal ⟨2, ![100000, 1]⟩ .f32 :=
  fun i => nodeOut (fun j => x0 (ix2 (i 0) j)) (fun j => t1 (ix2 (i 0) j)) (fun j => t2 (ix2 (i 0) j))
    (fun j k => w (ix3 0 j k)) (fun j k => w (ix3 1 j k)) (fun j k => w (ix3 2 j k))
    (fun k => b (ix1 k)) (fun k => wl (ix2 k 0)) (bl (ix1 0))

end Cert.ChebDense

end
-- ==== Proof.RefDense.lean ====
/-
  The reference's dense tail is the Chebyshev dense stage.

  After its graph propagation the reference holds three feature arrays — the input features, and the two
  propagated arrays that its operations 45 and 65 produce — and finishes with host operations only: each slab
  `s` of the weight tensor is sliced out and reshaped to a 128 × 128 matrix, the three arrays are multiplied by
  the three slabs and added in the order ((0 + 1) + 2), the bias row is broadcast down the nodes and added, the sum
  is clipped below at zero, multiplied by the 128 × 1 projection, and the one-entry output bias is broadcast and
  added.  Read at node `r`, entry by entry, that is `ChebDense.nodeOut` of row `r` of the three arrays: a slice
  followed by a reshape reads slab `s` at `(s, j, k)`; a contraction over the shared axis is the sum over `j`; the
  broadcasts read the bias at `k` and the output bias at its only entry.  Nothing is rearranged: the two sides are
  the same sums in the same grouping.
-/
import proofs.«164462_j20005957665494_1_alg».proof.Proof.Gen.ReferenceIdeal.Read
import proofs.«164462_j20005957665494_1_alg».proof.Proof.ChebDense

noncomputable section

namespace Cert.ReferenceIdeal.DenseTail

open Cert.ReferenceIdeal Cert.ReferenceIdeal.Read Idealize.ShloMosaic Idealize.ShloMosaic.ValueIdx Cert.ChebDense

variable (x0 : FVec Ideal S100000x128 .f32) (x1 : IVec S2x1600000 32) (x2 : FVec Ideal S1600000 .f32)
  (x3 : FVec Ideal S3x128x128 .f32) (x4 : FVec Ideal S128 .f32) (x5 : FVec Ideal S128x1 .f32) (x6 : FVec Ideal S1 .f32)

/-! ## The three weight slabs, each a slice of the weight tensor reshaped to a matrix -/

/-- Slab 0 at `(a, b)` is the weight tensor at `(0, a, b)`. -/
theorem slab0_apply (a b : Fin 128) : val_main_v31 (F := Ideal) x3 (ix2 a b) = x3 (ix3 0 a b) := by
  have ha := a.isLt
  have hb := b.isLt
  rw [val_main_v31_apply, val_main_v30_apply]
  refine congrArg x3 (funext fun d => Fin.ext ?_)
  match d with
  | ⟨0, _⟩ => rfl
  | ⟨1, _⟩ => show (a.val * 128 + b.val) / 128 % 128 = a.val; omega
  | ⟨2, _⟩ => show (a.val * 128 + b.val) % 128 = b.val; omega

/-- Slab 1 at `(a, b)` is the weight tensor at `(1, a, b)`. -/
theorem slab1_apply (a b : Fin 128) : val_main_v47 (F := Ideal) x3 (ix2 a b) = x3 (ix3 1 a b) := by
  have ha := a.isLt
  have hb := b.isLt
  rw [val_main_v47_apply, val_main_v46_apply]
  refine congrArg x3 (funext fun d => Fin.ext ?_)
  match d with
  | ⟨0, _⟩ => rfl
  | ⟨1, _⟩ => show (a.val * 128 + b.val) / 128 % 128 = a.val; omega
  | ⟨2, _⟩ => show (a.val * 128 + b.val) % 128 = b.val; omega

/-- Slab 2 at `(a, b)` is the weight tensor at `(2, a, b)`. -/
theorem slab2_apply (a b : Fin 128) : val_main_v67 (F := Ideal) x3 (ix2 a b) = x3 (ix3 2 a b) := by
  have ha := a.isLt
  have hb := b.isLt
  rw [val_main_v67_apply, val_main_v66_apply]
  refine congrArg x3 (funext fun d => Fin.ext ?_)
  match d with
  | ⟨0, _⟩ => rfl
  | ⟨1, _⟩ => show (a.val * 128 + b.val) / 128 % 128 = a.val; omega
  | ⟨2, _⟩ => show (a.val * 128 + b.val) % 128 = b.val; omega

/-! ## The three matrix products at node `r`, channel `k` -/

/-- The input features times slab 0. -/
theorem mix0_apply (r : Fin 100000) (k : Fin 128) :
    val_main_v32 (F := Ideal) x0 x3 (ix2 r k) = ∑ j : Fin 128, x0 (ix2 r j) * x3 (ix3 0 j k) := by
  rw [val_main_v32_apply]
  refine Finset.sum_congr rfl fun j _ => ?_
  have el : lidx_main_v32 (ix2 r k) j = ix2 r j :=
    funext fun a => Fin.ext (by match a with | ⟨0, _⟩ => rfl | ⟨1, _⟩ => rfl)
  have er : ridx_main_v32 (ix2 r k) j = ix2 j k :=
    funext fun a => Fin.ext (by match a with | ⟨0, _⟩ => rfl | ⟨1, _⟩ => rfl)
  rw [el, er, slab0_apply]

/-- The once-propagated features times slab 1. -/
theorem mix1_apply (r : Fin 100000) (k : Fin 128) :
    val_main_v48 (F := Ideal) x0 x1 x2 x3 (ix2 r k)
      = ∑ j : Fin 128, val_main_v45 (F := Ideal) x0 x1 x2 (ix2 r j) * x3 (ix3 1 j k) := by
  rw [val_main_v48_apply]
  refine Finset.sum_congr rfl fun j _ => ?_
  have el : lidx_main_v48 (ix2 r k) j = ix2 r j :=
    funext fun a => Fin.ext (by match a with | ⟨0, _⟩ => rfl | ⟨1, _⟩ => rfl)
  have er : ridx_main_v48 (ix2 r k) j = ix2 j k :=
    funext fun a => Fin.ext (by match a with | ⟨0, _⟩ => rfl | ⟨1, _⟩ => rfl)
  rw [el, er, slab1_apply]

/-- The twice-propagated features times slab 2. -/
theorem mix2_apply (r : Fin 100000) (k : Fin 128) :
    val_main_v68 (F := Ideal) x0 x1 x2 x3 (ix2 r k)
      = ∑ j : Fin 128, val_main_v65 (F := Ideal) x0 x1 x2 (ix2 r j) * x3 (ix3 2 j k) := by
  rw [val_main_v68_apply]
  refine Finset.sum_congr rfl fun j _ => ?_
  have el : lidx_main_v68 (ix2 r k) j = ix2 r j :=
    funext fun a => Fin.ext (by match a with | ⟨0, _⟩ => rfl | ⟨1, _⟩ => rfl)
  have er : ridx_main_v68 (ix2 r k) j = ix2 j k :=
    funext fun a => Fin.ext (by match a with | ⟨0, _⟩ => rfl | ⟨1, _⟩ => rfl)
  rw [el, er, slab2_apply]

/-! ## The bias row, the clip, the projection -/

/-- The bias broadcast down the nodes reads the bias at the channel. -/
theorem bias_apply (r : Fin 100000) (k : Fin 128) : val_main_v71 (F := Ideal) x4 (ix2 r k) = x4 (ix1 k) := by
  rw [val_main_v71_apply, val_main_v70_apply]
  exact congrArg x4 (funext fun a => Fin.ext (by match a with | ⟨0, _⟩ => rfl))

/-- The clipped activation of node `r`, channel `k`. -/
theorem hidden_apply (r : Fin 100000) (k : Fin 128) :
    val_main_v73 (F := Ideal) x0 x1 x2 x3 x4 (ix2 r k)
      = nodeHidden (fun j => x0 (ix2 r j)) (fun j => val_main_v45 (F := Ideal) x0 x1 x2 (ix2 r j))
          (fun j => val_main_v65 (F := Ideal) x0 x1 x2 (ix2 r j))
          (fun j k => x3 (ix3 0 j k)) (fun j k => x3 (ix3 1 j k)) (fun j k => x3 (ix3 2 j k)) (fun k => x4 (ix1 k)) k := by
  rw [val_main_v73_apply, val_main_v72_apply, val_main_v69_apply, val_main_v49_apply, mix0_apply, mix1_apply,
    mix2_apply, bias_apply, val_main_call1_v0_apply, val_main_call1_cst_apply]
  rfl

/-- The reference's result is the dense stage of the input features and its two propagated arrays. -/
theorem tail_eq :
    val_main_v77 (F := Ideal) x0 x1 x2 x3 x4 x5 x6
      = wholeOut x0 (val_main_v45 (F := Ideal) x0 x1 x2) (val_main_v65 (F := Ideal) x0 x1 x2) x3 x4 x5 x6 := by
  funext i
  obtain ⟨r, q, rfl⟩ : ∃ (r : Fin 100000) (q : Fin 1), i = ix2 r q := ⟨i 0, i 1, eq_ix2 i⟩
  have hq : q = 0 := Subsingleton.elim _ _
  subst hq
  rw [val_main_v77_apply, val_main_v74_apply, val_main_v76_apply, val_main_v75_apply]
  have hsum : (∑ k : Fin 128, val_main_v73 (F := Ideal) x0 x1 x2 x3 x4 (lidx_main_v74 (ix2 r 0) k) * x5 (ridx_main_v74 (ix2 r 0) k))
      = nodeProject (fun j => x0 (ix2 r j)) (fun j => val_main_v45 (F := Ideal) x0 x1 x2 (ix2 r j))
          (fun j => val_main_v65 (F := Ideal) x0 x1 x2 (ix2 r j))
          (fun j k => x3 (ix3 0 j k)) (fun j k => x3 (ix3 1 j k)) (fun j k => x3 (ix3 2 j k)) (fun k => x4 (ix1 k))
          (fun k => x5 (ix2 k 0)) := by
    unfold nodeProject
    refine Finset.sum_congr rfl fun k _ => ?_
    have el : lidx_main_v74 (ix2 r (0 : Fin 1)) k = ix2 r k :=
      funext fun a => Fin.ext (by match a with | ⟨0, _⟩ => rfl | ⟨1, _⟩ => rfl)
    have er : ridx_main_v74 (ix2 r (0 : Fin 1)) k = ix2 k 0 :=
      funext fun a => Fin.ext (by match a with | ⟨0, _⟩ => rfl | ⟨1, _⟩ => rfl)
    rw [el, er, hidden_apply]
  rw [hsum]
  have eb : idx_main_v75 (idx_main_v76 (ix2 r (0 : Fin 1))) = ix1 0 :=
    funext fun a => Fin.ext (by match a with | ⟨0, _⟩ => rfl)
  rw [eb]
  rfl

end Cert.ReferenceIdeal.DenseTail

end
-- ==== Proof.BodyDense.lean ====
/-
  What the kernel's body computes for one block of 2000 nodes, entry by entry.

  The body loads a block of 2000 rows of each of the three feature arrays, the three 1 × 128 × 128 slabs of the
  weight tensor, the bias, the projection and the output bias.  Over the extended reals a change of float format
  is the identity and a matrix product accumulated from the zero splat is the plain sum over the contracted axis,
  so the value it multiplies out before the output bias is added is, at row `p` of the block,

      ∑ₖ max( ((∑ⱼ A j · W0 j k) + (∑ⱼ B j · W1 j k)) + (∑ⱼ C j · W2 j k) + b k , 0 ) · wl k

  with `A`, `B`, `C` row `p` of the three loaded blocks: `ChebDense.nodeProject`.  The layout steps are a slab
  `[1, 128, 128]` read as a matrix `[128, 128]`, the bias `[128]` laid out as a row `[1, 128]` and repeated down the
  2000 rows, and a same-shape cast, which changes nothing.
-/
import proofs.«164462_j20005957665494_1_alg».proof.Proof.Gen.KernelIdeal.Skeleton
import proofs.«164462_j20005957665494_1_alg».proof.Proof.ChebDense
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyDense

open Cert.KernelIdeal Cert.KernelIdeal.Gen Idealize.ShloMosaic Idealize.ShloMosaic.ValueIdx Cert.ChebDense

/-! ## A block's matrix products, read at an entry -/

theorem mixL0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem mixR1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- 2000 rows times a 128 × 128 matrix from the zero splat: entry `(p, k)` is the sum over the shared axis. -/
theorem blockMix_apply (A : FVec Ideal S2000x128 .bf16) (B : FVec Ideal S128x128 .bf16) (p : Fin 2000) (k : Fin 128) :
    matmul dot_S2000x128_S128x128_S2000x128_1_0_0_1_n_n none A B (constant (F := Ideal) S2000x128 .f32 0x00000000#32) (ix2 p k)
      = ∑ j : Fin 128, A (ix2 p j) * B (ix2 j k) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun j _ => ?_
  have hk := ValueIdx.contrEquiv1_symm_val dot_S2000x128_S128x128_S2000x128_1_0_0_1_n_n 128 rfl rfl j
  have el : dot_S2000x128_S128x128_S2000x128_1_0_0_1_n_n.lhsIdx (ix2 p k) ((ValueIdx.contrEquiv1 dot_S2000x128_S128x128_S2000x128_1_0_0_1_n_n 128 rfl rfl).symm j) = ix2 p j :=
    funext fun a => Fin.ext (by
      match a with
      | ⟨0, _⟩ => exact mixL0 _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p k) ((ValueIdx.contrEquiv1 dot_S2000x128_S128x128_S2000x128_1_0_0_1_n_n 128 rfl rfl).symm j) = ix2 j k :=
    funext fun a => Fin.ext (by
      match a with
      | ⟨0, _⟩ => exact (dot_S2000x128_S128x128_S2000x128_1_0_0_1_n_n.rhsIdx_val_of_single rfl _ _).trans hk
      | ⟨1, _⟩ => exact mixR1 _ _)
  rw [el, er]

theorem projL0 (i : S2000x1.Idx) (q : dot_S2000x128_S128x1_S2000x1_1_0_0_1_n_n.contr.Idx) : (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide),
    dif_pos (show (0 : Fin S2000x128.rank) ∈ dot_S2000x128_S128x1_S2000x1_1_0_0_1_n_n.lhsNonContracting by decide)]
  rfl

theorem projR1 (i : S2000x1.Idx) (q : dot_S2000x128_S128x1_S2000x1_1_0_0_1_n_n.contr.Idx) : (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide),
    dif_pos (show (1 : Fin S128x1.rank) ∈ dot_S2000x128_S128x1_S2000x1_1_0_0_1_n_n.rhsNonContracting by decide)]
  rfl

/-- 2000 rows times the 128 × 1 projection from the zero splat: entry `(p, u)` is the sum over the shared axis. -/
theorem blockProj_apply (A : FVec Ideal S2000x128 .bf16) (B : FVec Ideal S128x1 .bf16) (p : Fin 2000) (u : Fin 1) :
    matmul dot_S2000x128_S128x1_S2000x1_1_0_0_1_n_n none A B (constant (F := Ideal) S2000x1 .f32 0x00000000#32) (ix2 p u)
      = ∑ k : Fin 128, A (ix2 p k) * B (ix2 k u) := by
  simp only [matmul]
  rw [Ideal.matmul_constant_zero_apply, ← Equiv.sum_comp (ValueIdx.contrEquiv1 dot_S2000x128_S128x1_S2000x1_1_0_0_1_n_n 128 rfl rfl).symm]
  refine Finset.sum_congr rfl fun k _ => ?_
  have hk := ValueIdx.contrEquiv1_symm_val dot_S2000x128_S128x1_S2000x1_1_0_0_1_n_n 128 rfl rfl k
  have el : dot_S2000x128_S128x1_S2000x1_1_0_0_1_n_n.lhsIdx (ix2 p u) ((ValueIdx.contrEquiv1 dot_S2000x128_S128x1_S2000x1_1_0_0_1_n_n 128 rfl rfl).symm k) = ix2 p k :=
    funext fun a => Fin.ext (by
      match a with
      | ⟨0, _⟩ => exact projL0 _ _
      | ⟨1, _⟩ => exact (dot_S2000x128_S128x1_S2000x1_1_0_0_1_n_n.lhsIdx_val_of_single rfl _ _).trans hk)
  have er : dot_S2000x128_S128x1_S2000x1_1_0_0_1_n_n.rhsIdx (ix2 p u) ((ValueIdx.contrEquiv1 dot_S2000x128_S128x1_S2000x1_1_0_0_1_n_n 128 rfl rfl).symm k) = ix2 k u :=
    funext fun a => Fin.ext (by
      match a with
      | ⟨0, _⟩ => exact (dot_S2000x128_S128x1_S2000x1_1_0_0_1_n_n.rhsIdx_val_of_single rfl _ _).trans hk
      | ⟨1, _⟩ => exact projR1 _ _)
  rw [el, er]

/-! ## The layout steps -/

/-- A loaded slab `[1, 128, 128]` read as a matrix: entry `(a, b)` is the slab's `(0, a, b)`. -/
theorem slab_apply (P : FVec Ideal S1x128x128 .f32) (a b : Fin 128) :
    shapeCast S128x128 P shapeCasts_S1x128x128_S128x128 (ix2 a b) = P (ix3 0 a b) :=
  shapeCast_1ab_ab_apply P shapeCasts_S1x128x128_S128x128 a b

/-- The bias laid out as a row and repeated down the block's rows reads the bias at the channel. -/
theorem biasRows_apply (P : FVec Ideal S128 .f32) (p : Fin 2000) (k : Fin 128) :
    broadcastTo S2000x128 (shapeCast S1x128 P shapeCasts_S128_S1x128) broadcasts_S1x128_S2000x128 (ix2 p k) = P (ix1 k) :=
  (broadcastTo_1b_ab_apply (shapeCast S1x128 P shapeCasts_S128_S1x128) broadcasts_S1x128_S2000x128 p k).trans
    (shapeCast_a_1a_apply P shapeCasts_S128_S1x128 0 k)

/-! ## The clipped activations of a block, and the value the body multiplies out -/

/-- The block's clipped activations `[2000, 128]`, as the body computes them from its loads. -/
def hiddenBlock (P0 P1 P2 : FVec Ideal S2000x128 .f32) (P3 P4 P5 : FVec Ideal S1x128x128 .f32) (P6 : FVec Ideal S128 .f32) :
    FVec Ideal S2000x128 .f32 :=
  maximumf
    (addf
      (addf
        (addf
          (matmul dot_S2000x128_S128x128_S2000x128_1_0_0_1_n_n none (truncf .bf16 P0 bitsLt_bf16_f32)
            (truncf .bf16 (shapeCast S128x128 P3 shapeCasts_S1x128x128_S128x128) bitsLt_bf16_f32)
            (constant (F := Ideal) S2000x128 .f32 0x00000000#32))
          (matmul dot_S2000x128_S128x128_S2000x128_1_0_0_1_n_n none (truncf .bf16 (shapeCast S2000x128 P1 shapeCasts_S2000x128_S2000x128) bitsLt_bf16_f32)
            (truncf .bf16 (shapeCast S128x128 P4 shapeCasts_S1x128x128_S128x128) bitsLt_bf16_f32)
            (constant (F := Ideal) S2000x128 .f32 0x00000000#32)))
        (matmul dot_S2000x128_S128x128_S2000x128_1_0_0_1_n_n none (truncf .bf16 (shapeCast S2000x128 P2 shapeCasts_S2000x128_S2000x128) bitsLt_bf16_f32)
          (truncf .bf16 (shapeCast S128x128 P5 shapeCasts_S1x128x128_S128x128) bitsLt_bf16_f32)
          (constant (F := Ideal) S2000x128 .f32 0x00000000#32)))
      (broadcastTo S2000x128 (shapeCast S1x128 P6 shapeCasts_S128_S1x128) broadcasts_S1x128_S2000x128))
    (broadcast S2000x128 (Scalar.ofBits (F := Ideal) .f32 0x00000000#32))

/-- The body's matrix-product payload is the projection of those activations. -/
theorem pay2_eq (P0 P1 P2 : FVec Ideal S2000x128 .f32) (P3 P4 P5 : FVec Ideal S1x128x128 .f32) (P6 : FVec Ideal S128 .f32)
    (P7 : FVec Ideal S128x1 .f32) :
    k0_pay2 (F := Ideal) P0 P1 P2 P3 P4 P5 P6 P7
      = matmul dot_S2000x128_S128x1_S2000x1_1_0_0_1_n_n none (truncf .bf16 (hiddenBlock P0 P1 P2 P3 P4 P5 P6) bitsLt_bf16_f32)
          (truncf .bf16 P7 bitsLt_bf16_f32) (constant (F := Ideal) S2000x1 .f32 0x00000000#32) := rfl

/-- One of the three products inside the activations, at `(p, k)`: a block's row against a slab's column. -/
theorem mixSlab_apply (X : FVec Ideal S2000x128 .f32) (P : FVec Ideal S1x128x128 .f32) (p : Fin 2000) (k : Fin 128) :
    matmul dot_S2000x128_S128x128_S2000x128_1_0_0_1_n_n none (truncf .bf16 X bitsLt_bf16_f32)
        (truncf .bf16 (shapeCast S128x128 P shapeCasts_S1x128x128_S128x128) bitsLt_bf16_f32)
        (constant (F := Ideal) S2000x128 .f32 0x00000000#32) (ix2 p k)
      = ∑ j : Fin 128, X (ix2 p j) * P (ix3 0 j k) :=
  (blockMix_apply _ _ p k).trans (Finset.sum_congr rfl fun j _ =>
    congrArg (fun z => X (ix2 p j) * z) (slab_apply P j k))

/-- The block's clipped activation at row `p`, channel `k`. -/
theorem hiddenBlock_apply (P0 P1 P2 : FVec Ideal S2000x128 .f32) (P3 P4 P5 : FVec Ideal S1x128x128 .f32)
    (P6 : FVec Ideal S128 .f32) (p : Fin 2000) (k : Fin 128) :
    hiddenBlock P0 P1 P2 P3 P4 P5 P6 (ix2 p k)
      = nodeHidden (fun j => P0 (ix2 p j)) (fun j => P1 (ix2 p j)) (fun j => P2 (ix2 p j))
          (fun j k => P3 (ix3 0 j k)) (fun j k => P4 (ix3 0 j k)) (fun j k => P5 (ix3 0 j k)) (fun k => P6 (ix1 k)) k := by
  have e1 : shapeCast S2000x128 P1 shapeCasts_S2000x128_S2000x128 = P1 := shapeCast_self P1 _
  have e2 : shapeCast S2000x128 P2 shapeCasts_S2000x128_S2000x128 = P2 := shapeCast_self P2 _
  unfold hiddenBlock nodeHidden
  rw [e1, e2]
  show max ((((matmul dot_S2000x128_S128x128_S2000x128_1_0_0_1_n_n none (truncf .bf16 P0 bitsLt_bf16_f32) _ _ (ix2 p k))
      + (matmul dot_S2000x128_S128x128_S2000x128_1_0_0_1_n_n none (truncf .bf16 P1 bitsLt_bf16_f32) _ _ (ix2 p k)))
      + (matmul dot_S2000x128_S128x128_S2000x128_1_0_0_1_n_n none (truncf .bf16 P2 bitsLt_bf16_f32) _ _ (ix2 p k)))
      + (broadcastTo S2000x128 (shapeCast S1x128 P6 shapeCasts_S128_S1x128) broadcasts_S1x128_S2000x128 (ix2 p k)))
      (Ideal.ofBits .f32 0x00000000#32) = _
  rw [mixSlab_apply P0 P3 p k, mixSlab_apply P1 P4 p k, mixSlab_apply P2 P5 p k, biasRows_apply P6 p k]

/-- The value the body multiplies out, at row `p` of the block: the projection of row `p`'s clipped activations. -/
theorem pay2_apply (P0 P1 P2 : FVec Ideal S2000x128 .f32) (P3 P4 P5 : FVec Ideal S1x128x128 .f32) (P6 : FVec Ideal S128 .f32)
    (P7 : FVec Ideal S128x1 .f32) (p : Fin 2000) :
    k0_pay2 (F := Ideal) P0 P1 P2 P3 P4 P5 P6 P7 (ix2 p (0 : Fin 1))
      = nodeProject (fun j => P0 (ix2 p j)) (fun j => P1 (ix2 p j)) (fun j => P2 (ix2 p j))
          (fun j k => P3 (ix3 0 j k)) (fun j k => P4 (ix3 0 j k)) (fun j k => P5 (ix3 0 j k)) (fun k => P6 (ix1 k))
          (fun k => P7 (ix2 k 0)) := by
  rw [pay2_eq]
  refine (blockProj_apply _ _ p 0).trans ?_
  unfold nodeProject
  refine Finset.sum_congr rfl fun k _ => ?_
  exact congrArg (fun z => z * P7 (ix2 k 0)) (hiddenBlock_apply P0 P1 P2 P3 P4 P5 P6 p k)

end Cert.KernelIdeal.BodyDense

end
-- ==== Proof.BlockLeaves.lean ====
/-
  One row of the block the kernel's body leaves in the result's staging buffer.

  The body stores once, through the whole 2000 × 1 buffer, the value it multiplied out plus the output bias laid
  out down the rows.  Its loads are the three feature blocks, read whole; the weight tensor's block, read three
  times through a 1 × 128 × 128 rectangle at offsets 0, 1, 2 along the leading axis; and the bias, projection and
  output bias, read whole.  So row `p` of what it leaves is `ChebDense.nodeOut` of row `p` of the three blocks
  and the three slabs of the weight block.
-/
import proofs.«164462_j20005957665494_1_alg».proof.Proof.ValuePatched
import proofs.«164462_j20005957665494_1_alg».proof.Proof.BodyDense
import proofs.«164462_j20005957665494_1_alg».proof.Proof.ChebDense

set_option maxRecDepth 16384

noncomputable section

namespace Cert.KernelIdeal.BlockLeaves

open Cert.KernelIdeal Cert.KernelIdeal.Gen Cert.KernelIdeal.ValueP Idealize.ShloMosaic Idealize.ShloMosaic.TcCoe
open Idealize.SL.Sem Idealize.ShloMosaic.ValueIdx Cert.ChebDense

/-! ## One row of what the body leaves in the result's block, over the loaded blocks as variables -/

theorem zeros1 : (![0] : Fin 1 → Nat) = fun _ => 0 := funext fun a => by fin_cases a <;> rfl
theorem zeros2 : (![0, 0] : Fin 2 → Nat) = fun _ => 0 := funext fun a => by fin_cases a <;> rfl

/-- The weight block read through the rectangle at offset 0 of its leading axis: entry `(0, j, k)` is the block's `(0, j, k)`. -/
theorem slabAt0 (x3 : Vec Ideal S3x128x128 .f32) (j k : Fin 128) :
    View.ld (Val := Elt Ideal) x3 r0_1 (ix3 (0 : Fin 1) j k) = x3 (ix3 0 j k) := by
  show x3 (r0_1.idx (ix3 (0 : Fin 1) j k)) = x3 (ix3 0 j k)
  refine congrArg x3 (funext fun d => Fin.ext ?_)
  match d with
  | ⟨0, _⟩ => rfl
  | ⟨1, _⟩ => show 0 + 1 * j.val = j.val; omega
  | ⟨2, _⟩ => show 0 + 1 * k.val = k.val; omega

/-- The weight block read through the rectangle at offset 1 of its leading axis: entry `(0, j, k)` is the block's `(1, j, k)`. -/
theorem slabAt1 (x3 : Vec Ideal S3x128x128 .f32) (j k : Fin 128) :
    View.ld (Val := Elt Ideal) x3 r0_2 (ix3 (0 : Fin 1) j k) = x3 (ix3 1 j k) := by
  show x3 (r0_2.idx (ix3 (0 : Fin 1) j k)) = x3 (ix3 1 j k)
  refine congrArg x3 (funext fun d => Fin.ext ?_)
  match d with
  | ⟨0, _⟩ => rfl
  | ⟨1, _⟩ => show 0 + 1 * j.val = j.val; omega
  | ⟨2, _⟩ => show 0 + 1 * k.val = k.val; omega

/-- The weight block read through the rectangle at offset 2 of its leading axis: entry `(0, j, k)` is the block's `(2, j, k)`. -/
theorem slabAt2 (x3 : Vec Ideal S3x128x128 .f32) (j k : Fin 128) :
    View.ld (Val := Elt Ideal) x3 r0_3 (ix3 (0 : Fin 1) j k) = x3 (ix3 2 j k) := by
  show x3 (r0_3.idx (ix3 (0 : Fin 1) j k)) = x3 (ix3 2 j k)
  refine congrArg x3 (funext fun d => Fin.ext ?_)
  match d with
  | ⟨0, _⟩ => rfl
  | ⟨1, _⟩ => show 0 + 1 * j.val = j.val; omega
  | ⟨2, _⟩ => show 0 + 1 * k.val = k.val; omega

/-- Row `p` of the block the body leaves: `nodeOut` of row `p` of the three feature blocks, the three slabs of the
    weight tensor read at their offsets 0, 1, 2 along its leading axis, the bias, the projection, the output bias. -/
theorem leaves_apply (x0 x1 x2 : Vec Ideal S2000x128 .f32) (x3 : Vec Ideal S3x128x128 .f32) (x4 : Vec Ideal S128 .f32)
    (x5 : Vec Ideal S128x1 .f32) (x6 : Vec Ideal S1 .f32) (p : Fin 2000) :
    out0_7 (F := Ideal) x0 x1 x2 x3 x4 x5 x6 (ix2 p (0 : Fin 1))
      = nodeOut (fun j => x0 (ix2 p j)) (fun j => x1 (ix2 p j)) (fun j => x2 (ix2 p j))
          (fun j k => x3 (ix3 0 j k)) (fun j k => x3 (ix3 1 j k)) (fun j k => x3 (ix3 2 j k))
          (fun k => x4 (ix1 k)) (fun k => x5 (ix2 k 0)) (x6 (ix1 0)) := by
  unfold out0_7
  rw [canon7_eq]
  simp only [View.ld_unit_zero (S := S2000x128) zeros2, View.ld_unit_zero (S := S128) zeros1,
    View.ld_unit_zero (S := S128x1) zeros2, View.ld_unit_zero (S := S1) zeros1]
  have i0 : ix7_0 (ix2 p (0 : Fin 1)) = ix2 p (0 : Fin 1) :=
    funext fun a => Fin.ext (by match a with | ⟨0, _⟩ => rfl | ⟨1, _⟩ => rfl)
  have i1 : ix7_1 (ix2 p (0 : Fin 1)) = ix1 (0 : Fin 1) :=
    funext fun a => Fin.ext (by match a with | ⟨0, _⟩ => rfl)
  show FloatOps.addf (k0_pay2 (F := Ideal) x0 x1 x2 (View.ld (Val := Elt Ideal) x3 r0_1) (View.ld (Val := Elt Ideal) x3 r0_2) (View.ld (Val := Elt Ideal) x3 r0_3) x4 x5
      (ix7_0 (ix2 p (0 : Fin 1)))) (x6 (ix7_1 (ix2 p (0 : Fin 1)))) = _
  rw [i0, i1, BodyDense.pay2_apply]
  have w0 : (fun j k : Fin 128 => View.ld (Val := Elt Ideal) x3 r0_1 (ix3 (0 : Fin 1) j k)) = fun j k => x3 (ix3 0 j k) :=
    funext fun j => funext fun k => slabAt0 x3 j k
  have w1 : (fun j k : Fin 128 => View.ld (Val := Elt Ideal) x3 r0_2 (ix3 (0 : Fin 1) j k)) = fun j k => x3 (ix3 1 j k) :=
    funext fun j => funext fun k => slabAt1 x3 j k
  have w2 : (fun j k : Fin 128 => View.ld (Val := Elt Ideal) x3 r0_3 (ix3 (0 : Fin 1) j k)) = fun j k => x3 (ix3 2 j k) :=
    funext fun j => funext fun k => slabAt2 x3 j k
  rw [w0, w1, w2]
  rfl

end Cert.KernelIdeal.BlockLeaves

end
-- ==== Proof.BlockReads.lean ====
/-
  The windows' blocks at a grid point, read off the arrays the launch finds.

  The launch has 50 grid points.  The three feature windows and the result window move one block of 2000 rows per
  point, in step; the weight tensor, bias, projection and output bias are one block each, staged at every point.
  An element of a window's block sits in its array at block index × block size + its coordinate inside the block,
  so row `p` of a feature block at point `t` is the array's row at which row `p` of the result block sits, and
  the one-block windows read their arrays unchanged.
-/
import proofs.«164462_j20005957665494_1_alg».proof.Proof.Gen.KernelIdeal.Frame
import Idealize.ShloMosaic.Lib.ValueIdx
import Idealize.ShloMosaic.Lib.Pipeline.Value

set_option maxRecDepth 16384

noncomputable section

namespace Cert.KernelIdeal.BlockReads

open Cert.KernelIdeal Cert.KernelIdeal.Gen Idealize.ShloMosaic Idealize.ShloMosaic.TcCoe
open Idealize.SL.Sem Idealize.ShloMosaic.ValueIdx

/-! ## The windows' blocks at a grid point -/

/-- The printed index maps, decided over the 50 grid points: the three feature windows and the result move one block
    of rows per point, in step; the weight tensor, bias, projection and output bias stay at block 0. -/
theorem moves : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-- Where row `p` of point `t`'s result block sits in the result array. -/
abbrev at7 (t : Fin cfg0.N) (p : Fin 2000) : S100000x1.Idx := ((cfg0.win 7).blk t).view.emb (ix2 p (0 : Fin 1))

/-! ## A window's block read off an arbitrary array -/

/-- Row `p` of the first feature window's block at point `t` is the array's row under row `p` of the result block. -/
theorem featRead0 (t : Fin cfg0.N) (p : Fin 2000) (j : Fin 128) (X : FVec Ideal S100000x128 .f32) :
    ((cfg0.win 0).blk t).view.read (Elt Ideal) X (ix2 p j) = X (ix2 (at7 t p 0) j) := by
  obtain ⟨e70, -, e0, e1, -⟩ := moves t
  rw [View.read_apply]
  refine congrArg X (funext fun a => Fin.ext ?_)
  match a with
  | ⟨0, _⟩ => show win0_0.index t (0 : Fin 2) * 2000 + 1 * p.val = win0_7.index t (0 : Fin 2) * 2000 + 1 * p.val; rw [e0, e70]
  | ⟨1, _⟩ => show win0_0.index t (1 : Fin 2) * 128 + 1 * j.val = j.val; rw [e1]; omega

/-- The same for the once-propagated window. -/
theorem featRead1 (t : Fin cfg0.N) (p : Fin 2000) (j : Fin 128) (X : FVec Ideal S100000x128 .f32) :
    ((cfg0.win 1).blk t).view.read (Elt Ideal) X (ix2 p j) = X (ix2 (at7 t p 0) j) := by
  obtain ⟨e70, -, -, -, e0, e1, -⟩ := moves t
  rw [View.read_apply]
  refine congrArg X (funext fun a => Fin.ext ?_)
  match a with
  | ⟨0, _⟩ => show win0_1.index t (0 : Fin 2) * 2000 + 1 * p.val = win0_7.index t (0 : Fin 2) * 2000 + 1 * p.val; rw [e0, e70]
  | ⟨1, _⟩ => show win0_1.index t (1 : Fin 2) * 128 + 1 * j.val = j.val; rw [e1]; omega

/-- The same for the twice-propagated window. -/
theorem featRead2 (t : Fin cfg0.N) (p : Fin 2000) (j : Fin 128) (X : FVec Ideal S100000x128 .f32) :
    ((cfg0.win 2).blk t).view.read (Elt Ideal) X (ix2 p j) = X (ix2 (at7 t p 0) j) := by
  obtain ⟨e70, -, -, -, -, -, e0, e1, -⟩ := moves t
  rw [View.read_apply]
  refine congrArg X (funext fun a => Fin.ext ?_)
  match a with
  | ⟨0, _⟩ => show win0_2.index t (0 : Fin 2) * 2000 + 1 * p.val = win0_7.index t (0 : Fin 2) * 2000 + 1 * p.val; rw [e0, e70]
  | ⟨1, _⟩ => show win0_2.index t (1 : Fin 2) * 128 + 1 * j.val = j.val; rw [e1]; omega

/-- The weight tensor's one block is the tensor. -/
theorem weightRead (t : Fin cfg0.N) (s : Fin 3) (j k : Fin 128) (X : FVec Ideal S3x128x128 .f32) :
    ((cfg0.win 3).blk t).view.read (Elt Ideal) X (ix3 s j k) = X (ix3 s j k) := by
  obtain ⟨-, -, -, -, -, -, -, -, e30, e31, e32, -⟩ := moves t
  rw [View.read_apply]
  refine congrArg X (funext fun a => Fin.ext ?_)
  match a with
  | ⟨0, _⟩ => show win0_3.index t (0 : Fin 3) * 3 + 1 * s.val = s.val; rw [e30]; omega
  | ⟨1, _⟩ => show win0_3.index t (1 : Fin 3) * 128 + 1 * j.val = j.val; rw [e31]; omega
  | ⟨2, _⟩ => show win0_3.index t (2 : Fin 3) * 128 + 1 * k.val = k.val; rw [e32]; omega

/-- The bias's one block is the bias. -/
theorem biasRead (t : Fin cfg0.N) (k : Fin 128) (X : FVec Ideal S128 .f32) :
    ((cfg0.win 4).blk t).view.read (Elt Ideal) X (ix1 k) = X (ix1 k) := by
  obtain ⟨-, -, -, -, -, -, -, -, -, -, -, e40, -⟩ := moves t
  rw [View.read_apply]
  refine congrArg X (funext fun a => Fin.ext ?_)
  match a with
  | ⟨0, _⟩ => show win0_4.index t (0 : Fin 1) * 128 + 1 * k.val = k.val; rw [e40]; omega

/-- The projection's one block is the projection. -/
theorem projRead (t : Fin cfg0.N) (k : Fin 128) (X : FVec Ideal S128x1 .f32) :
    ((cfg0.win 5).blk t).view.read (Elt Ideal) X (ix2 k (0 : Fin 1)) = X (ix2 k (0 : Fin 1)) := by
  obtain ⟨-, -, -, -, -, -, -, -, -, -, -, -, e50, e51, -⟩ := moves t
  rw [View.read_apply]
  refine congrArg X (funext fun a => Fin.ext ?_)
  match a with
  | ⟨0, _⟩ => show win0_5.index t (0 : Fin 2) * 128 + 1 * k.val = k.val; rw [e50]; omega
  | ⟨1, _⟩ => show win0_5.index t (1 : Fin 2) * 1 + 1 * 0 = 0; rw [e51]

/-- The output bias's one block is the output bias. -/
theorem outBiasRead (t : Fin cfg0.N)  (X : FVec Ideal S1 .f32) :
    ((cfg0.win 6).blk t).view.read (Elt Ideal) X (ix1 (0 : Fin 1)) = X (ix1 (0 : Fin 1)) := by
  obtain ⟨-, -, -, -, -, -, -, -, -, -, -, -, -, -, e60⟩ := moves t
  rw [View.read_apply]
  refine congrArg X (funext fun a => Fin.ext ?_)
  match a with
  | ⟨0, _⟩ => show win0_6.index t (0 : Fin 1) * 1 + 1 * 0 = 0; rw [e60]

/-! ## The arrays the launch finds, under one name -/

variable (m : (ℓ : Loc nD τ sig) → Buf (Elt Ideal) ℓ)

/-- Window `w`'s array as the launch finds it.  A plain definition: what it holds is never needed here, only that
    the blocks are read off it. -/
def staged (c : Dev nD) (w : Fin cfg0.W) : Buf (Elt Ideal) ((c : Thread nD τ).loc (Pipeline.arrRef spec0 w)) :=
  V m c (Pipeline.arrRef spec0 w)

/-- A window's block at a point is read off that array. -/
theorem iblk_eq (c : Dev nD) (w : Fin cfg0.W) (t : Fin cfg0.N) :
    iblk m c w t = ((cfg0.win w).blk t).view.read (Elt Ideal) (staged m c w) := rfl

/-! ## The blocks the body loads, entry by entry -/

theorem feat0 (c : Dev nD) (t : Fin cfg0.N) (p : Fin 2000) (j : Fin 128) :
    iblk m c 0 t (ix2 p j) = staged m c 0 (ix2 (at7 t p 0) j) := by
  rw [iblk_eq]; exact featRead0 t p j (staged m c 0)

theorem feat1 (c : Dev nD) (t : Fin cfg0.N) (p : Fin 2000) (j : Fin 128) :
    iblk m c 1 t (ix2 p j) = staged m c 1 (ix2 (at7 t p 0) j) := by
  rw [iblk_eq]; exact featRead1 t p j (staged m c 1)

theorem feat2 (c : Dev nD) (t : Fin cfg0.N) (p : Fin 2000) (j : Fin 128) :
    iblk m c 2 t (ix2 p j) = staged m c 2 (ix2 (at7 t p 0) j) := by
  rw [iblk_eq]; exact featRead2 t p j (staged m c 2)

theorem weights (c : Dev nD) (t : Fin cfg0.N) (s : Fin 3) (j k : Fin 128) :
    iblk m c 3 t (ix3 s j k) = staged m c 3 (ix3 s j k) := by
  rw [iblk_eq]; exact weightRead t s j k (staged m c 3)

theorem bias (c : Dev nD) (t : Fin cfg0.N) (k : Fin 128) : iblk m c 4 t (ix1 k) = staged m c 4 (ix1 k) := by
  rw [iblk_eq]; exact biasRead t k (staged m c 4)

theorem projection (c : Dev nD) (t : Fin cfg0.N) (k : Fin 128) :
    iblk m c 5 t (ix2 k (0 : Fin 1)) = staged m c 5 (ix2 k (0 : Fin 1)) := by
  rw [iblk_eq]; exact projRead t k (staged m c 5)

theorem outBias (c : Dev nD) (t : Fin cfg0.N) : iblk m c 6 t (ix1 (0 : Fin 1)) = staged m c 6 (ix1 (0 : Fin 1)) := by
  rw [iblk_eq]; exact outBiasRead t (staged m c 6)

/-- The contents the launch finds in two buffers that are one buffer are the same contents. -/
theorem V_of_eq (c : Dev nD) {b b' : Ref sig .tc} (h : b = b') : HEq (V m c b) (V m c b') := by
  subst h; rfl

end Cert.KernelIdeal.BlockReads

end
-- ==== Proof.DenseArray.lean ====
/-
  From blocks to the array: what the kernel's result array holds after the run.

  The launch walks 50 grid points.  Point `t` stages rows `2000·t … 2000·t + 1999` of the three feature arrays,
  the whole weight tensor, bias, projection and output bias, and writes back rows `2000·t … 2000·t + 1999` of the
  one-column result.  Row `p` of what it writes back is `ChebDense.nodeOut` of row `p` of the three staged blocks,
  that is of row `2000·t + p` of the three arrays: block `t` of `ChebDense.wholeOut` of the arrays as the launch
  finds them.  Every row `i` lies in the block of the point `i / 2000`, so the blocks fill the array and the result
  array ends holding `wholeOut`.
-/
import proofs.«164462_j20005957665494_1_alg».proof.Proof.ValuePatched
import proofs.«164462_j20005957665494_1_alg».proof.Proof.BlockLeaves
import proofs.«164462_j20005957665494_1_alg».proof.Proof.BlockReads
import proofs.«164462_j20005957665494_1_alg».proof.Proof.BodyDense
import proofs.«164462_j20005957665494_1_alg».proof.Proof.ChebDense

set_option maxRecDepth 16384

noncomputable section

namespace Cert.KernelIdeal.DenseArray

open Cert.KernelIdeal Cert.KernelIdeal.Gen Cert.KernelIdeal.ValueP Idealize.ShloMosaic Idealize.ShloMosaic.TcCoe
open Idealize.SL.Sem Idealize.ShloMosaic.ValueIdx Cert.ChebDense
open Idealize.ShloMosaic.Pipeline (Dat)
open Cert.KernelIdeal.BlockLeaves Cert.KernelIdeal.BlockReads

variable (m : (ℓ : Loc nD τ sig) → Buf (Elt Ideal) ℓ) (ρ : Dev nD → PrngReg)

/-- The function the result array ends holding: the dense stage of the arrays as the launch finds them. -/
abbrev launched (c : Dev nD) : FVec Ideal S100000x1 .f32 :=
  wholeOut (staged m c 0) (staged m c 1) (staged m c 2) (staged m c 3) (staged m c 4) (staged m c 5) (staged m c 6)

/-! ## What a point writes back, the cover, the array -/

/-- What point `t` writes back is block `t` of `launched`. -/
theorem flushed_eq (c : Dev nD) (t : Fin cfg0.N) :
    (dats m 0 c).flushed 7 t = ((cfg0.win 7).blk t).view.read (Elt Ideal) (launched m c) := by
  rw [flushed7]
  funext y
  obtain ⟨p, rfl⟩ : ∃ p : Fin 2000, y = ix2 p (0 : Fin 1) :=
    ⟨⟨(y 0).val, (y 0).isLt⟩, funext fun a => Fin.ext (by
      match a with
      | ⟨0, _⟩ => rfl
      | ⟨1, _⟩ => have h : (y 1).val < 1 := (y 1).isLt; show (y 1).val = 0; omega)⟩
  show out0_7 (iblk m c 0 t) (iblk m c 1 t) (iblk m c 2 t) (iblk m c 3 t) (iblk m c 4 t) (iblk m c 5 t) (iblk m c 6 t)
      (ix2 p (0 : Fin 1)) = launched m c (at7 t p)
  refine (leaves_apply (iblk m c 0 t) (iblk m c 1 t) (iblk m c 2 t) (iblk m c 3 t) (iblk m c 4 t) (iblk m c 5 t)
    (iblk m c 6 t) p).trans ?_
  have f0 : (fun j : Fin 128 => iblk m c 0 t (ix2 p j)) = fun j => staged m c 0 (ix2 (at7 t p 0) j) :=
    funext fun j => feat0 m c t p j
  have f1 : (fun j : Fin 128 => iblk m c 1 t (ix2 p j)) = fun j => staged m c 1 (ix2 (at7 t p 0) j) :=
    funext fun j => feat1 m c t p j
  have f2 : (fun j : Fin 128 => iblk m c 2 t (ix2 p j)) = fun j => staged m c 2 (ix2 (at7 t p 0) j) :=
    funext fun j => feat2 m c t p j
  have g0 : (fun j k : Fin 128 => iblk m c 3 t (ix3 0 j k)) = fun j k => staged m c 3 (ix3 0 j k) :=
    funext fun j => funext fun k => weights m c t 0 j k
  have g1 : (fun j k : Fin 128 => iblk m c 3 t (ix3 1 j k)) = fun j k => staged m c 3 (ix3 1 j k) :=
    funext fun j => funext fun k => weights m c t 1 j k
  have g2 : (fun j k : Fin 128 => iblk m c 3 t (ix3 2 j k)) = fun j k => staged m c 3 (ix3 2 j k) :=
    funext fun j => funext fun k => weights m c t 2 j k
  have g4 : (fun k : Fin 128 => iblk m c 4 t (ix1 k)) = fun k => staged m c 4 (ix1 k) :=
    funext fun k => bias m c t k
  have g5 : (fun k : Fin 128 => iblk m c 5 t (ix2 k (0 : Fin 1))) = fun k => staged m c 5 (ix2 k (0 : Fin 1)) :=
    funext fun k => projection m c t k
  rw [f0, f1, f2, g0, g1, g2, g4, g5, outBias m c t]
  show _ = wholeOut (staged m c 0) (staged m c 1) (staged m c 2) (staged m c 3) (staged m c 4) (staged m c 5)
    (staged m c 6) (at7 t p)
  unfold wholeOut
  rfl

/-- Row `i` of the result lies in the block of the point `i / 2000`. -/
theorem covered (i : S100000x1.Idx) :
    ∃ t : Fin cfg0.N, (cfg0.win 7).flush t = true ∧ i ∈ ((cfg0.win 7).blk t).view.set := by
  have hN : cfg0.N = 50 := N_0
  have h0 : (i 0).val < 100000 := (i 0).isLt
  have h1 : (i 1).val < 1 := (i 1).isLt
  let t : Fin cfg0.N := ⟨(i 0).val / 2000, by rw [hN]; omega⟩
  obtain ⟨e70, e71, -⟩ := moves t
  have ht : t.val = (i 0).val / 2000 := rfl
  refine ⟨t, flush0_7 t, ?_⟩
  show i ∈ ((View.whole main_v59).slice (win0_7.rect t)).set
  rw [View.set_slice_whole, Rect.mem_set_unit]
  intro a
  match a with
  | ⟨0, _⟩ =>
    show win0_7.index t (0 : Fin 2) * 2000 ≤ (i 0).val ∧ (i 0).val < win0_7.index t (0 : Fin 2) * 2000 + 2000
    rw [e70, ht]; omega
  | ⟨1, _⟩ =>
    show win0_7.index t (1 : Fin 2) * 1 ≤ (i 1).val ∧ (i 1).val < win0_7.index t (1 : Fin 2) * 1 + 1
    rw [e71]; omega

/-- The result array after the run is the dense stage of the arrays as the launch finds them. -/
theorem final (c : Dev nD) : (dats m 0 c).arrAt 7 cfg0.N = launched m c :=
  (dats m 0 c).arrAt_eq_of_cover 7 (launched m c) (fun t _ => flushed_eq m c t) covered

/-- The kernel's run, with the result array named as that function and the arguments unchanged. -/
theorem run : θ_run defs (onTc (τ := τ) (main (F := Ideal))) ⟨m, fun _ => 0, ρ⟩ fun r => ∀ c : Dev nD,
      r.2.mem ((c : Thread nD τ).loc main_v59) = launched m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.DenseArray

end
-- ==== Proof.LibAfterAppend.lean ====
/-
  Host operations run one stretch after another.

  The contents of a device's buffers after a list of host operations is a fold of the operations over the contents
  before.  A fold over a concatenation is the fold over the second list started from the fold over the first: the
  contents after `l₁ ++ l₂` are the contents after `l₂` from the contents after `l₁`.  This lets a long host
  program be read one stretch at a time, with the contents between two stretches carried as one unknown.
-/
import Idealize.ShloMosaic.Lib.StableHlo.Run

noncomputable section

namespace Cert.Lib.AfterAppend

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Three stretches, as a host program cut twice reads them. -/
theorem after_three (l₁ l₂ l₃ : List (HloOp τ sig Val)) (V : Valuation τ sig Val) :
    after (List.flatten [l₁, l₂, l₃]) V = after l₃ (after l₂ (after l₁ V)) := by
  simp only [List.flatten_cons, List.flatten_nil, List.append_nil, after_append]

end Cert.Lib.AfterAppend

end
-- ==== Proof.PropagationStages.lean ====
/-
  The graph propagation's first two stretches of host operations, read over an unknown starting memory.

  The kernel's program and the reference begin with the same host operations.  The first stretch splits the edge
  list into source and destination indices, sums the edge weights per source node, and takes the inverse square
  root of that degree clipped below by a tiny positive number, beside the mask "degree positive".  The second
  stretch is the outlined `where`: it selects that inverse square root where the mask holds and zero elsewhere.
  Read from ANY starting contents `W` of the device's buffers, each buffer these stretches write is the
  reference's stage of the same name applied to what `W` holds in the argument buffers, and the buffers they do
  not write keep what `W` held.  Nothing is evaluated: each statement is one reading of the list of operations.
-/
import proofs.«164462_j20005957665494_1_alg».proof.Proof.Gen.KernelIdeal.Launch
import proofs.«164462_j20005957665494_1_alg».proof.Proof.Gen.ReferenceIdeal.Read
import Idealize.ShloMosaic.Lib.StableHlo.Run

set_option maxRecDepth 16384

noncomputable section

namespace Cert.KernelIdeal.PropagationStages

open Cert.KernelIdeal Cert.KernelIdeal.Gen Idealize.ShloMosaic Idealize.ShloMosaic.TcCoe Idealize.SL.Sem
open Idealize.ShloMosaic.StableHlo

/- The device's buffer contents at some moment of the host program: an unknown the lemmas below never open. -/
variable (W : Valuation τ sig (Elt Ideal))

/-! ## The first stretch: indices, degree, its inverse square root and the positivity mask -/

/-- The source indices. -/
theorem srcIdx :
    (after (hostOps0 (F := Ideal)) W (Proc.devRef .tc main_v1) : Cert.ReferenceIdeal.S1600000.Idx → BitVec 32) = Cert.ReferenceIdeal.Read.val_main_v1 (F := Ideal) (W (Proc.devRef .tc main_arg1)) := by
  simp only [hostOps0]
  after_results_simp
  first | done | rfl

/-- The destination indices. -/
theorem dstIdx :
    (after (hostOps0 (F := Ideal)) W (Proc.devRef .tc main_v3) : Cert.ReferenceIdeal.S1600000.Idx → BitVec 32) = Cert.ReferenceIdeal.Read.val_main_v3 (F := Ideal) (W (Proc.devRef .tc main_arg1)) := by
  simp only [hostOps0]
  after_results_simp
  first | done | rfl

/-- The mask: the degree is positive. -/
theorem degPositive :
    (after (hostOps0 (F := Ideal)) W (Proc.devRef .tc main_v8) : Cert.ReferenceIdeal.S100000.Idx → BitVec 1) = Cert.ReferenceIdeal.Read.val_main_v8 (F := Ideal) (W (Proc.devRef .tc main_arg1)) (W (Proc.devRef .tc main_arg2)) := by
  simp only [hostOps0]
  after_results_simp
  first | done | rfl

/-- The inverse square root of the clipped degree. -/
theorem degRsqrt :
    (after (hostOps0 (F := Ideal)) W (Proc.devRef .tc main_v11) : Cert.ReferenceIdeal.S100000.Idx → EReal) = Cert.ReferenceIdeal.Read.val_main_v11 (F := Ideal) (W (Proc.devRef .tc main_arg1)) (W (Proc.devRef .tc main_arg2)) := by
  simp only [hostOps0]
  after_results_simp
  first | done | rfl

/-- The zero the selection falls back to. -/
theorem zeroCell :
    (after (hostOps0 (F := Ideal)) W (Proc.devRef .tc main_cst_2) : Cert.ReferenceIdeal.S_.Idx → EReal) = Cert.ReferenceIdeal.Read.val_main_cst_2 (F := Ideal) := by
  simp only [hostOps0]
  after_results_simp
  first | done | rfl

/-- The first stretch does not write the features. -/
theorem keeps0_arg0 :
    (after (hostOps0 (F := Ideal)) W (Proc.devRef .tc main_arg0) : Cert.ReferenceIdeal.S100000x128.Idx → EReal) = (W (Proc.devRef .tc main_arg0)) := by
  simp only [hostOps0]
  after_results_simp
  first | done | rfl

/-- The first stretch does not write the edge list. -/
theorem keeps0_arg1 :
    (after (hostOps0 (F := Ideal)) W (Proc.devRef .tc main_arg1) : Cert.ReferenceIdeal.S2x1600000.Idx → BitVec 32) = (W (Proc.devRef .tc main_arg1)) := by
  simp only [hostOps0]
  after_results_simp
  first | done | rfl

/-- The first stretch does not write the edge weights. -/
theorem keeps0_arg2 :
    (after (hostOps0 (F := Ideal)) W (Proc.devRef .tc main_arg2) : Cert.ReferenceIdeal.S1600000.Idx → EReal) = (W (Proc.devRef .tc main_arg2)) := by
  simp only [hostOps0]
  after_results_simp
  first | done | rfl

/-! ## The second stretch: the selection -/

/-! ## The typed references of the outlined selection are literal buffers: moving contents to and from them changes nothing -/

theorem toSel (v : (⟨S100000, .f32⟩ : BufTy).Contents (Elt Ideal)) :
    ((TRef.of main_v12 : TRef sig ⟨S100000, .f32⟩).toBuf v : (⟨S100000, .f32⟩ : BufTy).Contents (Elt Ideal)) = v := rfl
theorem ofMask (v : (⟨S100000, .i1⟩ : BufTy).Contents (Elt Ideal)) :
    ((TRef.of main_v8 : TRef sig ⟨S100000, .i1⟩).ofBuf v : (⟨S100000, .i1⟩ : BufTy).Contents (Elt Ideal)) = v := rfl
theorem ofRsqrt (v : (⟨S100000, .f32⟩ : BufTy).Contents (Elt Ideal)) :
    ((TRef.of main_v11 : TRef sig ⟨S100000, .f32⟩).ofBuf v : (⟨S100000, .f32⟩ : BufTy).Contents (Elt Ideal)) = v := rfl
theorem ofZeros (v : (⟨S100000, .f32⟩ : BufTy).Contents (Elt Ideal)) :
    ((TRef.of main_call0_v1 : TRef sig ⟨S100000, .f32⟩).ofBuf v : (⟨S100000, .f32⟩ : BufTy).Contents (Elt Ideal)) = v := rfl
theorem toZeros (v : (⟨S100000, .f32⟩ : BufTy).Contents (Elt Ideal)) :
    ((TRef.of main_call0_v1 : TRef sig ⟨S100000, .f32⟩).toBuf v : (⟨S100000, .f32⟩ : BufTy).Contents (Elt Ideal)) = v := rfl
theorem ofZeroConv (v : (⟨S_, .f32⟩ : BufTy).Contents (Elt Ideal)) :
    ((TRef.of main_call0_v0 : TRef sig ⟨S_, .f32⟩).ofBuf v : (⟨S_, .f32⟩ : BufTy).Contents (Elt Ideal)) = v := rfl
theorem toZeroConv (v : (⟨S_, .f32⟩ : BufTy).Contents (Elt Ideal)) :
    ((TRef.of main_call0_v0 : TRef sig ⟨S_, .f32⟩).toBuf v : (⟨S_, .f32⟩ : BufTy).Contents (Elt Ideal)) = v := rfl
theorem ofZeroCell (v : (⟨S_, .f32⟩ : BufTy).Contents (Elt Ideal)) :
    ((TRef.of main_cst_2 : TRef sig ⟨S_, .f32⟩).ofBuf v : (⟨S_, .f32⟩ : BufTy).Contents (Elt Ideal)) = v := rfl

/-- The scaling per node: the inverse square root where the degree is positive, zero elsewhere — from contents in which
    the mask, the inverse square root and the zero are the reference's stages of `x1`, `x2`. -/
theorem nodeScale (x1 : (⟨Cert.ReferenceIdeal.S2x1600000, .i32⟩ : BufTy).Contents (Elt Ideal)) (x2 : (⟨Cert.ReferenceIdeal.S1600000, .f32⟩ : BufTy).Contents (Elt Ideal))
    (h8 : ((W (Proc.devRef .tc main_v8)) : Cert.ReferenceIdeal.S100000.Idx → BitVec 1) = Cert.ReferenceIdeal.Read.val_main_v8 (F := Ideal) x1 x2)
    (h11 : ((W (Proc.devRef .tc main_v11)) : Cert.ReferenceIdeal.S100000.Idx → EReal) = Cert.ReferenceIdeal.Read.val_main_v11 (F := Ideal) x1 x2)
    (hz : ((W (Proc.devRef .tc main_cst_2)) : Cert.ReferenceIdeal.S_.Idx → EReal) = Cert.ReferenceIdeal.Read.val_main_cst_2 (F := Ideal)) :
    (after (hostOps0_1 (F := Ideal)) W (Proc.devRef .tc main_v12) : Cert.ReferenceIdeal.S100000.Idx → EReal) = Cert.ReferenceIdeal.Read.val_main_v12 (F := Ideal) x1 x2 := by
  simp only [hostOps0_1]
  after_results_simp
  simp only [toSel, ofMask, ofRsqrt, ofZeros, toZeros, ofZeroConv, toZeroConv, ofZeroCell]
  rw [h8, h11, hz]
  rfl

/-- The second stretch does not write `main_v1`. -/
theorem keeps1_v1 :
    after (hostOps0_1 (F := Ideal)) W (Proc.devRef .tc main_v1) = W (Proc.devRef .tc main_v1) := by
  simp only [hostOps0_1]
  after_results_simp
  first | done | rfl

/-- The second stretch does not write `main_v3`. -/
theorem keeps1_v3 :
    after (hostOps0_1 (F := Ideal)) W (Proc.devRef .tc main_v3) = W (Proc.devRef .tc main_v3) := by
  simp only [hostOps0_1]
  after_results_simp
  first | done | rfl

/-- The second stretch does not write `main_arg0`. -/
theorem keeps1_arg0 :
    after (hostOps0_1 (F := Ideal)) W (Proc.devRef .tc main_arg0) = W (Proc.devRef .tc main_arg0) := by
  simp only [hostOps0_1]
  after_results_simp
  first | done | rfl

/-- The second stretch does not write `main_arg1`. -/
theorem keeps1_arg1 :
    after (hostOps0_1 (F := Ideal)) W (Proc.devRef .tc main_arg1) = W (Proc.devRef .tc main_arg1) := by
  simp only [hostOps0_1]
  after_results_simp
  first | done | rfl

/-- The second stretch does not write `main_arg2`. -/
theorem keeps1_arg2 :
    after (hostOps0_1 (F := Ideal)) W (Proc.devRef .tc main_arg2) = W (Proc.devRef .tc main_arg2) := by
  simp only [hostOps0_1]
  after_results_simp
  first | done | rfl

end Cert.KernelIdeal.PropagationStages

end
-- ==== Proof.PropagatedOnce.lean ====
/-
  The once-propagated feature array is the same function of the arguments in both programs.

  After the first two stretches (indices, degree, node scaling) the kernel's program scales every edge by
  -((d[src] · w) · d[dst]), gathers the source rows of the input features, multiplies each by its edge's scale and
  sums them per destination node — host operations only.  An index used to gather first has the node count added when
  it is negative, as array indexing does; the sums per node take the indices as they are given.  The reference performs the same operations with the same
  dimension records and calls the result its stage 45.  Read from contents in which the earlier buffers hold the
  reference's stages, the third stretch leaves exactly that stage in the buffer the kernel's first propagated window
  stages; chaining the three stretches from the launch memory gives the array as the launch finds it.
-/
import proofs.«164462_j20005957665494_1_alg».proof.Proof.Gen.KernelIdeal.Frame
import proofs.«164462_j20005957665494_1_alg».proof.Proof.Gen.ReferenceIdeal.Read
import proofs.«164462_j20005957665494_1_alg».proof.Proof.LibAfterAppend
import proofs.«164462_j20005957665494_1_alg».proof.Proof.PropagationStages
import Idealize.ShloMosaic.Lib.StableHlo.Run

set_option maxRecDepth 16384

noncomputable section

namespace Cert.KernelIdeal.PropagatedOnce

open Cert.KernelIdeal Cert.KernelIdeal.Gen Idealize.ShloMosaic Idealize.ShloMosaic.TcCoe Idealize.SL.Sem
open Idealize.ShloMosaic.StableHlo Cert.KernelIdeal.PropagationStages

set_option maxHeartbeats 40000000 in
/-- From contents holding the node scaling, the two index vectors and the arguments, the third stretch leaves the reference's stage 45 in the once-propagated buffer. -/
theorem once_of (W : Valuation τ sig (Elt Ideal)) (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal))
    (h12 : (W (Proc.devRef .tc main_v12) : Cert.ReferenceIdeal.S100000.Idx → EReal) = Cert.ReferenceIdeal.Read.val_main_v12 (F := Ideal) x1 x2)
    (h1 : (W (Proc.devRef .tc main_v1) : Cert.ReferenceIdeal.S1600000.Idx → BitVec 32) = Cert.ReferenceIdeal.Read.val_main_v1 (F := Ideal) x1)
    (h3 : (W (Proc.devRef .tc main_v3) : Cert.ReferenceIdeal.S1600000.Idx → BitVec 32) = Cert.ReferenceIdeal.Read.val_main_v3 (F := Ideal) x1)
    (h0 : (W (Proc.devRef .tc main_arg0) : Cert.ReferenceIdeal.S100000x128.Idx → EReal) = x0)
    (h2 : (W (Proc.devRef .tc main_arg2) : Cert.ReferenceIdeal.S1600000.Idx → EReal) = x2) :
    (after (hostOps0_2 (F := Ideal)) W (Proc.devRef .tc main_v42) : Cert.ReferenceIdeal.S100000x128.Idx → EReal)
      = Cert.ReferenceIdeal.Read.val_main_v45 (F := Ideal) x0 x1 x2 := by
  simp only [hostOps0_2]
  after_results_simp
  rw [h12, h1, h3, h0, h2]
  rfl

variable (m : (ℓ : Loc nD τ sig) → Buf (Elt Ideal) ℓ)

set_option maxHeartbeats 40000000 in
/-- The array the kernel's first propagated window stages, as the launch finds it, is the reference's stage 45 of the features, the edge list and the edge weights. -/
theorem once_eq (c : Dev nD) :
    (V m c (Pipeline.arrRef spec0 (1 : Fin 8)) : S100000x128.Idx → EReal)
      = Cert.ReferenceIdeal.Read.val_main_v45 (F := Ideal) (m ((c : Thread nD τ).loc main_arg0))
          (m ((c : Thread nD τ).loc main_arg1)) (m ((c : Thread nD τ).loc main_arg2)) := by
  dsimp only [V]
  rw [Cert.Lib.AfterAppend.after_three]
  refine once_of _ _ _ _ ?_ ?_ ?_ ?_ ?_
  · exact nodeScale _ _ _ (degPositive _) (degRsqrt _) (zeroCell _)
  · exact (keeps1_v1 _).trans (srcIdx _)
  · exact (keeps1_v3 _).trans (dstIdx _)
  · exact (keeps1_arg0 _).trans (keeps0_arg0 _)
  · exact (keeps1_arg2 _).trans (keeps0_arg2 _)

end Cert.KernelIdeal.PropagatedOnce

end
-- ==== Proof.PropagatedTwice.lean ====
/-
  The Chebyshev array of order two is the same function of the arguments in both programs.

  After the once-propagated array T₁ the kernel's program gathers T₁'s source rows, scales and sums them per
  destination node as before, doubles the result and subtracts the input features: T₂ = 2 · (the propagation of T₁)
  - T₀, host operations only.  The reference performs the same operations with the same dimension records and the
  same literal 2 and calls the result its stage 65.  Read from contents in which the earlier buffers hold the
  reference's stages, the third stretch leaves exactly that stage in the buffer the kernel's second propagated
  window stages; chaining the three stretches from the launch memory gives the array as the launch finds it.
-/
import proofs.«164462_j20005957665494_1_alg».proof.Proof.Gen.KernelIdeal.Frame
import proofs.«164462_j20005957665494_1_alg».proof.Proof.Gen.ReferenceIdeal.Read
import proofs.«164462_j20005957665494_1_alg».proof.Proof.LibAfterAppend
import proofs.«164462_j20005957665494_1_alg».proof.Proof.PropagationStages
import Idealize.ShloMosaic.Lib.StableHlo.Run

set_option maxRecDepth 16384

noncomputable section

namespace Cert.KernelIdeal.PropagatedTwice

open Cert.KernelIdeal Cert.KernelIdeal.Gen Idealize.ShloMosaic Idealize.ShloMosaic.TcCoe Idealize.SL.Sem
open Idealize.ShloMosaic.StableHlo Cert.KernelIdeal.PropagationStages

set_option maxHeartbeats 40000000 in
/-- From contents holding the node scaling, the two index vectors and the arguments, the third stretch leaves the reference's stage 65 in the twice-propagated buffer. -/
theorem twice_of (W : Valuation τ sig (Elt Ideal)) (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal))
    (h12 : (W (Proc.devRef .tc main_v12) : Cert.ReferenceIdeal.S100000.Idx → EReal) = Cert.ReferenceIdeal.Read.val_main_v12 (F := Ideal) x1 x2)
    (h1 : (W (Proc.devRef .tc main_v1) : Cert.ReferenceIdeal.S1600000.Idx → BitVec 32) = Cert.ReferenceIdeal.Read.val_main_v1 (F := Ideal) x1)
    (h3 : (W (Proc.devRef .tc main_v3) : Cert.ReferenceIdeal.S1600000.Idx → BitVec 32) = Cert.ReferenceIdeal.Read.val_main_v3 (F := Ideal) x1)
    (h0 : (W (Proc.devRef .tc main_arg0) : Cert.ReferenceIdeal.S100000x128.Idx → EReal) = x0)
    (h2 : (W (Proc.devRef .tc main_arg2) : Cert.ReferenceIdeal.S1600000.Idx → EReal) = x2) :
    (after (hostOps0_2 (F := Ideal)) W (Proc.devRef .tc main_v58) : Cert.ReferenceIdeal.S100000x128.Idx → EReal)
      = Cert.ReferenceIdeal.Read.val_main_v65 (F := Ideal) x0 x1 x2 := by
  simp only [hostOps0_2]
  after_results_simp
  rw [h12, h1, h3, h0, h2]
  rfl

variable (m : (ℓ : Loc nD τ sig) → Buf (Elt Ideal) ℓ)

set_option maxHeartbeats 40000000 in
/-- The array the kernel's second propagated window stages, as the launch finds it, is the reference's stage 65 of the features, the edge list and the edge weights. -/
theorem twice_eq (c : Dev nD) :
    (V m c (Pipeline.arrRef spec0 (2 : Fin 8)) : S100000x128.Idx → EReal)
      = Cert.ReferenceIdeal.Read.val_main_v65 (F := Ideal) (m ((c : Thread nD τ).loc main_arg0))
          (m ((c : Thread nD τ).loc main_arg1)) (m ((c : Thread nD τ).loc main_arg2)) := by
  dsimp only [V]
  rw [Cert.Lib.AfterAppend.after_three]
  refine twice_of _ _ _ _ ?_ ?_ ?_ ?_ ?_
  · exact nodeScale _ _ _ (degPositive _) (degRsqrt _) (zeroCell _)
  · exact (keeps1_v1 _).trans (srcIdx _)
  · exact (keeps1_v3 _).trans (dstIdx _)
  · exact (keeps1_arg0 _).trans (keeps0_arg0 _)
  · exact (keeps1_arg2 _).trans (keeps0_arg2 _)

end Cert.KernelIdeal.PropagatedTwice

end
-- ==== Proof.StagedArrays.lean ====
/-
  What the launch finds in each window's array.

  The kernel's launch stages seven arrays.  Five are arguments no host operation writes — the features, the weight
  tensor, the bias, the projection, the output bias — and the launch finds them as the program was started with
  them.  The other two are the propagated feature arrays the host operations before the launch compute, and they
  are the reference's stages 45 and 65 of the features, the edge list and the edge weights.
-/
import proofs.«164462_j20005957665494_1_alg».proof.Proof.Gen.KernelIdeal.Frame
import proofs.«164462_j20005957665494_1_alg».proof.Proof.BlockReads
import proofs.«164462_j20005957665494_1_alg».proof.Proof.PropagatedOnce
import proofs.«164462_j20005957665494_1_alg».proof.Proof.PropagatedTwice

noncomputable section

namespace Cert.KernelIdeal.StagedArrays

open Cert.KernelIdeal Cert.KernelIdeal.Gen Cert.KernelIdeal.BlockReads Idealize.ShloMosaic Idealize.ShloMosaic.TcCoe
open Idealize.SL.Sem

variable (m : (ℓ : Loc nD τ sig) → Buf (Elt Ideal) ℓ)

/-- The features are as launched. -/
theorem features (c : Dev nD) :
    (staged m c 0 : S100000x128.Idx → EReal) = m ((c : Thread nD τ).loc main_arg0) :=
  (eq_of_heq (V_of_eq m c (rfl : Pipeline.arrRef spec0 (0 : Fin 8) = main_arg0))).trans (V_main_arg0 m c)

/-- The once-propagated array is the reference's stage 45. -/
theorem once (c : Dev nD) :
    (staged m c 1 : S100000x128.Idx → EReal)
      = Cert.ReferenceIdeal.Read.val_main_v45 (F := Ideal) (m ((c : Thread nD τ).loc main_arg0))
          (m ((c : Thread nD τ).loc main_arg1)) (m ((c : Thread nD τ).loc main_arg2)) :=
  Cert.KernelIdeal.PropagatedOnce.once_eq m c

/-- The twice-propagated array is the reference's stage 65. -/
theorem twice (c : Dev nD) :
    (staged m c 2 : S100000x128.Idx → EReal)
      = Cert.ReferenceIdeal.Read.val_main_v65 (F := Ideal) (m ((c : Thread nD τ).loc main_arg0))
          (m ((c : Thread nD τ).loc main_arg1)) (m ((c : Thread nD τ).loc main_arg2)) :=
  Cert.KernelIdeal.PropagatedTwice.twice_eq m c

/-- The weight tensor is as launched. -/
theorem weightTensor (c : Dev nD) :
    (staged m c 3 : S3x128x128.Idx → EReal) = m ((c : Thread nD τ).loc main_arg3) :=
  (eq_of_heq (V_of_eq m c (rfl : Pipeline.arrRef spec0 (3 : Fin 8) = main_arg3))).trans (V_main_arg3 m c)

/-- The bias is as launched. -/
theorem biasRow (c : Dev nD) :
    (staged m c 4 : S128.Idx → EReal) = m ((c : Thread nD τ).loc main_arg4) :=
  (eq_of_heq (V_of_eq m c (rfl : Pipeline.arrRef spec0 (4 : Fin 8) = main_arg4))).trans (V_main_arg4 m c)

/-- The projection is as launched. -/
theorem projectionColumn (c : Dev nD) :
    (staged m c 5 : S128x1.Idx → EReal) = m ((c : Thread nD τ).loc main_arg5) :=
  (eq_of_heq (V_of_eq m c (rfl : Pipeline.arrRef spec0 (5 : Fin 8) = main_arg5))).trans (V_main_arg5 m c)

/-- The output bias is as launched. -/
theorem outputBias (c : Dev nD) :
    (staged m c 6 : S1.Idx → EReal) = m ((c : Thread nD τ).loc main_arg6) :=
  (eq_of_heq (V_of_eq m c (rfl : Pipeline.arrRef spec0 (6 : Fin 8) = main_arg6))).trans (V_main_arg6 m c)

end Cert.KernelIdeal.StagedArrays

end
-- ==== Proof.lean ====
/-
  A Chebyshev graph convolution with three terms followed by a one-channel projection: the kernel's program and
  the reference compute the same function of their arguments over the extended reals.

  Both programs first propagate the node features over the graph with host operations only: the degree of a node is
  the sum of the weights of the edges whose source index it is, every edge is scaled by -((d[src] · w) · d[dst]) with
  d the inverse square root of the degree clipped below by a tiny positive number (and zero where the degree is not
  positive), T₁ is the segment sum over destination indices of the scaled source rows of the input features T₀, and
  T₂ = 2 · (the same propagation of T₁) - T₀.  (An index used to gather first has the node count added when it is
  negative; the segment sums take the indices as given.)  These operations
  are the same in both programs, so T₁ and T₂ are one function of the arguments on both sides and are never opened
  (Proof/PropagatedOnce.lean, Proof/PropagatedTwice.lean).

  What differs is who runs the dense stage, node by node
      out = (∑ₖ max(((T₀·W₀ + T₁·W₁) + T₂·W₂ + b)ₖ, 0) · wlₖ) + bl:
  the reference with host matrix products (Proof/RefDense.lean), the kernel in one launch over 50 blocks of 2000
  nodes, its matrix products taken from a zero accumulator on operands passed through a narrower float format.  Over
  the extended reals a format change is the identity and 0 + s = s, so a block's row is the same formula
  (Proof/BodyDense.lean), and the 50 blocks fill the result column (Proof/DenseArray.lean).  No law beyond these is
  used, so the finiteness of the inputs is not needed for the equality.
-/
import proofs.«164462_j20005957665494_1_alg».proof.Defs
import proofs.«164462_j20005957665494_1_alg».proof.Proof.Gen.Kernel
import proofs.«164462_j20005957665494_1_alg».proof.Proof.Gen.Kernel.Skeleton
import proofs.«164462_j20005957665494_1_alg».proof.Proof.Gen.Kernel.Launch
import proofs.«164462_j20005957665494_1_alg».proof.Proof.Gen.Kernel.Points
import proofs.«164462_j20005957665494_1_alg».proof.Proof.Gen.Kernel.Frame
import proofs.«164462_j20005957665494_1_alg».proof.Proof.Gen.KernelIdeal
import proofs.«164462_j20005957665494_1_alg».proof.Proof.Gen.KernelIdeal.Skeleton
import proofs.«164462_j20005957665494_1_alg».proof.Proof.Gen.KernelIdeal.Launch
import proofs.«164462_j20005957665494_1_alg».proof.Proof.Gen.KernelIdeal.Points
import proofs.«164462_j20005957665494_1_alg».proof.Proof.Gen.KernelIdeal.Frame
import proofs.«164462_j20005957665494_1_alg».proof.Proof.Gen.ReferenceIdeal
import proofs.«164462_j20005957665494_1_alg».proof.Proof.Gen.Pre_finite_inputs
import proofs.«164462_j20005957665494_1_alg».proof.Proof.ValuePatched
import proofs.«164462_j20005957665494_1_alg».proof.Proof.Gen.ReferenceIdeal.Run
import proofs.«164462_j20005957665494_1_alg».proof.Proof.Gen.ReferenceIdeal.Read
import proofs.«164462_j20005957665494_1_alg».proof.Proof.ChebDense
import proofs.«164462_j20005957665494_1_alg».proof.Proof.RefDense
import proofs.«164462_j20005957665494_1_alg».proof.Proof.BodyDense
import proofs.«164462_j20005957665494_1_alg».proof.Proof.DenseArray
import proofs.«164462_j20005957665494_1_alg».proof.Proof.PropagatedOnce
import proofs.«164462_j20005957665494_1_alg».proof.Proof.PropagatedTwice
import proofs.«164462_j20005957665494_1_alg».proof.Proof.LibAfterAppend
import proofs.«164462_j20005957665494_1_alg».proof.Proof.PropagationStages
import proofs.«164462_j20005957665494_1_alg».proof.Proof.BlockLeaves
import proofs.«164462_j20005957665494_1_alg».proof.Proof.BlockReads
import proofs.«164462_j20005957665494_1_alg».proof.Proof.StagedArrays
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run, with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the arguments both programs end with the dense stage of T₀, T₁, T₂ in their result:
    the kernel's result array is `wholeOut` of the arrays as its launch finds them, the reference's last stage is
    `wholeOut` of its stages 45 and 65, and those are the arrays the launch finds (Proof/StagedArrays.lean). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.DenseArray.launched m c, Cert.KernelIdeal.DenseArray.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v77_eq, Cert.ReferenceIdeal.DenseTail.tail_eq, a0, a1, a2, a3, a4, a5, a6]
  show _ = Cert.ChebDense.wholeOut (Cert.KernelIdeal.BlockReads.staged m c 0) (Cert.KernelIdeal.BlockReads.staged m c 1)
    (Cert.KernelIdeal.BlockReads.staged m c 2) (Cert.KernelIdeal.BlockReads.staged m c 3)
    (Cert.KernelIdeal.BlockReads.staged m c 4) (Cert.KernelIdeal.BlockReads.staged m c 5)
    (Cert.KernelIdeal.BlockReads.staged m c 6)
  rw [Cert.KernelIdeal.StagedArrays.features m c, Cert.KernelIdeal.StagedArrays.once m c,
    Cert.KernelIdeal.StagedArrays.twice m c, Cert.KernelIdeal.StagedArrays.weightTensor m c,
    Cert.KernelIdeal.StagedArrays.biasRow m c, Cert.KernelIdeal.StagedArrays.projectionColumn m c,
    Cert.KernelIdeal.StagedArrays.outputBias m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
